-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) (main_arg1 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  main_v3
-- ==== Kernel.lean ====
abbrev S65536x512 : Shape := ⟨2, ![65536, 512]⟩
abbrev S65536 : Shape := ⟨1, ![65536]⟩
abbrev S1024x2x32x512 : Shape := ⟨4, ![1024, 2, 32, 512]⟩
abbrev S1x1 : Shape := ⟨2, ![1, 1]⟩
abbrev S32x2x32x512 : Shape := ⟨4, ![32, 2, 32, 512]⟩
abbrev S32x1x32x512 : Shape := ⟨4, ![32, 1, 32, 512]⟩
abbrev S32x32x512 : Shape := ⟨3, ![32, 32, 512]⟩
abbrev S32x512 : Shape := ⟨2, ![32, 512]⟩
abbrev S32x1x512 : Shape := ⟨3, ![32, 1, 512]⟩
abbrev S32x32 : Shape := ⟨2, ![32, 32]⟩
abbrev S32 : Shape := ⟨1, ![32]⟩
abbrev S32x1 : Shape := ⟨2, ![32, 1]⟩
abbrev S1 : Shape := ⟨1, ![1]⟩
abbrev S_ : Shape := ⟨0, ![]⟩

abbrev nBuf : Space → Nat
  | .hbm => 5
  | .vmem => 3
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1024x2x32x512, .f32⟩
  | .hbm, ⟨3, _⟩ => ⟨S1x1, .f32⟩
  | .hbm, ⟨4, _⟩ => ⟨S_, .f32⟩
  | .local _ .vmem, ⟨0, _⟩ => ⟨S32x2x32x512, .f32⟩
  | .local _ .vmem, ⟨1, _⟩ => ⟨S32x2x32x512, .f32⟩
  | .local _ .vmem, ⟨2, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S65536x512_S1024x2x32x512 : S65536x512.ShapeCasts S1024x2x32x512
  inb_S32x2x32x512_S32x1x32x512_0_0_0_0 : ∀ a, (![0, 0, 0, 0] : Fin 4 → Nat) a + S32x1x32x512.size a ≤ S32x2x32x512.size a
  h_S32x1x32x512 : 0 < S32x1x32x512.numel
  shapeCasts_S32x1x32x512_S32x32x512 : S32x1x32x512.ShapeCasts S32x32x512
  inb_S32x2x32x512_S32x1x32x512_0_1_0_0 : ∀ a, (![0, 1, 0, 0] : Fin 4 → Nat) a + S32x1x32x512.size a ≤ S32x2x32x512.size a
  reduces_S32x32x512_S32x512 : S32x32x512.Reduces [1] S32x512
  shapeCasts_S32x512_S32x1x512 : S32x512.ShapeCasts S32x1x512
  broadcasts_S32x1x512_S32x32x512 : S32x1x512.Broadcasts S32x32x512
  reduces_S32x32x512_S32x32 : S32x32x512.Reduces [2] S32x32
  reduces_S32x32_S32 : S32x32.Reduces [1] S32
  shapeCasts_S32_S32x1 : S32.ShapeCasts S32x1
  broadcasts_S32x1_S32x32 : S32x1.Broadcasts S32x32
  reduces_S32x1_S1 : S32x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2x32x512.size a ≤ S1024x2x32x512.size a
  hwx0_0 : ∀ i : grid0.Coords, EltTy.bits .f32 = 32 ∨ (Rect.block (s := S1024x2x32x512) S32x2x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S32x2x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536 : Shape := ⟨1, ![65536]⟩
abbrev S1024x2x32x512 : Shape := ⟨4, ![1024, 2, 32, 512]⟩
abbrev S1024x1x32x512 : Shape := ⟨4, ![1024, 1, 32, 512]⟩
abbrev S1024x32x512 : Shape := ⟨3, ![1024, 32, 512]⟩
abbrev S_ : Shape := ⟨0, ![]⟩
abbrev S1024x512 : Shape := ⟨2, ![1024, 512]⟩
abbrev S1024x1x512 : Shape := ⟨3, ![1024, 1, 512]⟩
abbrev S1024x32 : Shape := ⟨2, ![1024, 32]⟩
abbrev S1024 : Shape := ⟨1, ![1024]⟩
abbrev S1024x1 : Shape := ⟨2, ![1024, 1]⟩

abbrev nBuf : Space → Nat
  | .hbm => 40
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1024x2x32x512, .f32⟩
  | .hbm, ⟨3, _⟩ => ⟨S1024x1x32x512, .f32⟩
  | .hbm, ⟨4, _⟩ => ⟨S1024x32x512, .f32⟩
  | .hbm, ⟨5, _⟩ => ⟨S1024x1x32x512, .f32⟩
  | .hbm, ⟨6, _⟩ => ⟨S1024x32x512, .f32⟩
  | .hbm, ⟨7, _⟩ => ⟨S_, .f32⟩
  | .hbm, ⟨8, _⟩ => ⟨S1024x512, .f32⟩
  | .hbm, ⟨9, _⟩ => ⟨S1024x1x512, .f32⟩
  | .hbm, ⟨10, _⟩ => ⟨S_, .f32⟩
  | .hbm, ⟨11, _⟩ => ⟨S1024x1x512, .f32⟩
  | .hbm, ⟨12, _⟩ => ⟨S1024x1x512, .f32⟩
  | .hbm, ⟨13, _⟩ => ⟨S1024x32x512, .f32⟩
  | .hbm, ⟨14, _⟩ => ⟨S1024x32x512, .f32⟩
  | .hbm, ⟨15, _⟩ => ⟨S1024x32x512, .f32⟩
  | .hbm, ⟨16, _⟩ => ⟨S_, .f32⟩
  | .hbm, ⟨17, _⟩ => ⟨S1024x32, .f32⟩
  | .hbm, ⟨18, _⟩ => ⟨S1024x32x512, .f32⟩
  | .hbm, ⟨19, _⟩ => ⟨S1024x32x512, .f32⟩
  | .hbm, ⟨20, _⟩ => ⟨S1024x32x512, .f32⟩
  | .hbm, ⟨21, _⟩ => ⟨S_, .f32⟩
  | .hbm, ⟨22, _⟩ => ⟨S1024x32, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S1024x32, .f32⟩
  | .hbm, ⟨27, _⟩ => ⟨S1024x32, .f32⟩
  | .hbm, ⟨28, _⟩ => ⟨S_, .f32⟩
  | .hbm, ⟨29, _⟩ => ⟨S1024x32, .f32⟩
  | .hbm, ⟨30, _⟩ => ⟨S1024x32, .f32⟩
  | .hbm, ⟨31, _⟩ => ⟨S_, .f32⟩
  | .hbm, ⟨32, _⟩ => ⟨S1024x32, .f32⟩
  | .hbm, ⟨33, _⟩ => ⟨S1024x32, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_call0_cst : Ref sig .tc := ⟨.hbm, 31, rfl⟩
abbrev main_call0_v0 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  shapeCasts_S65536x512_S1024x2x32x512 : S65536x512.ShapeCasts S1024x2x32x512
  slices_S1024x2x32x512_S1024x1x32x512_0_0_0_0 : S1024x2x32x512.Slices ![0, 0, 0, 0] S1024x1x32x512
  shapeCasts_S1024x1x32x512_S1024x32x512 : S1024x1x32x512.ShapeCasts S1024x32x512
  slices_S1024x2x32x512_S1024x1x32x512_0_1_0_0 : S1024x2x32x512.Slices ![0, 1, 0, 0] S1024x1x32x512
  reducesTo_S1024x32x512_S1024x512_d1 : S1024x32x512.ReducesTo [1] S1024x512
  h_S_ : 0 < S_.numel
  bcast_S1024x512_S1024x1x512_0_2 : S1024x512.BroadcastsInDim S1024x1x512 (![0, 2] : Fin 2 → Fin S1024x1x512.rank)
  bcast_S_S1024x1x512 : S_.BroadcastsInDim S1024x1x512 (![] : Fin 0 → Fin S1024x1x512.rank)
  bcast_S1024x1x512_S1024x32x512_0_1_2 : S1024x1x512.BroadcastsInDim S1024x32x512 (![0, 1, 2] : Fin 3 → Fin S1024x32x512.rank)
  reducesTo_S1024x32x512_S1024x32_d2 : S1024x32x512.ReducesTo [2] S1024x32
  reducesTo_S1024x32_S1024_d1 : S1024x32.ReducesTo [1] S1024
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  bcast_S_S1024x32 : S_.BroadcastsInDim S1024x32 (![] : Fin 0 → Fin S1024x32.rank)
  reducesTo_S1024_S_d0 : S1024.ReducesTo [0] S_

variable [Facts₀]

class Facts : Prop extends Facts₀ where

variable [Facts]
-- ==== Proof.Spec.lean ====
import Idealize.ShloMosaic.PureOps.Ideal

/-! # The mean hinge loss against the class centroid

For each of the 1024 classes the input holds 32 positive and 32 negative samples of 512 coordinates. The class's
centroid is the mean of its positives; every positive is charged its squared distance to the centroid, less the
squared distance from the centroid to the nearest negative, plus a margin, clamped below at zero; the class's loss is
the sum of the 32 charges and the result is the mean of the class losses. All of it on the extended reals, the float
words kept as the values their patterns denote. -/

noncomputable section

namespace Cert.Hinge

open Idealize.ShloMosaic
open scoped BigOperators

/-- The centroid of a class's positives, coordinate by coordinate: their sum over the 32. -/
def centroid (p : Fin 32 → Fin 512 → EReal) (d : Fin 512) : EReal :=
  Ideal.div (∑ s : Fin 32, p s d) (Ideal.ofBits .f32 0x42000000#32)

/-- The squared distance between two points of 512 coordinates. -/
def sqDist (x y : Fin 512 → EReal) : EReal :=
  ∑ d : Fin 512, (x d - y d) * (x d - y d)

/-- The squared distance from the centroid to the nearest negative. -/
def nearest (p n : Fin 32 → Fin 512 → EReal) : EReal :=
  ⨅ s : Fin 32, sqDist (n s) (centroid p)

/-- One positive's charge: its squared distance to the centroid less the nearest negative's, plus the margin, clamped
    below at zero. -/
def charge (p n : Fin 32 → Fin 512 → EReal) (s : Fin 32) : EReal :=
  max (sqDist (centroid p) (p s) - nearest p n + Ideal.ofBits .f32 0x3E99999A#32) (Ideal.ofBits .f32 0x00000000#32)

/-- A class's loss: the sum of its positives' charges. -/
def classLoss (p n : Fin 32 → Fin 512 → EReal) : EReal :=
  ∑ s : Fin 32, charge p n s

/-- The mean of the class losses over the 1024 classes, of the input as a function of class, polarity (0 the
    positives, 1 the negatives), sample and coordinate. -/
def meanLoss (A : Fin 1024 → Fin 2 → Fin 32 → Fin 512 → EReal) : EReal :=
  Ideal.div (∑ c : Fin 1024, classLoss (A c 0) (A c 1)) (Ideal.ofBits .f32 0x44800000#32)

end Cert.Hinge

end
-- ==== Proof.LibAxisSums.lean ====
import Idealize.ShloMosaic.PureOps.Ideal.Laws
import Idealize.ShloMosaic.Lib.Pipeline.Value
import Idealize.ShloMosaic.Lib.ValueIdx

/-! # Sums over one axis of a small-rank array, read at an index by coordinates

At exact values a vector sum-reduction over one axis, from the zero word, is at a result index the sum over that axis's
coordinate of the source at the index with the coordinate put back: the middle or the last axis of a rank-3 array, the
last or the first axis of a rank-2 array. With them: a sum over a rank-1 index set is the sum over its one coordinate,
and a shape cast that removes a unit axis in second place of a rank-4 array reads the operand with `0` there. -/

namespace Cert.LibAxisSums

open Idealize.ShloMosaic Idealize.ShloMosaic.ValueIdx
open scoped BigOperators

variable {α : Type}

/-- A rank-1 index set is its one coordinate's range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- An `[a, 1, b, c]` array cast to `[a, b, c]`: the unit axis is dropped. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    simp only [Nat.mul_one, Nat.add_zero])

/-- The sum over the middle axis of an `[a, b, c]` array, from the zero word, at `(i, k)`. -/
theorem sum_mid3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  show ∑ j : Fin b, src (h.lift (ix2 i k) j) = _
  refine Finset.sum_congr rfl fun j _ => congrArg src (funext fun ax => Fin.ext ?_)
  match ax with
  | ⟨0, _⟩ => rfl
  | ⟨1, _⟩ => rfl
  | ⟨2, _⟩ => rfl

/-- The sum over the last axis of an `[a, b, c]` array, from the zero word, at `(i, j)`. -/
theorem sum_last3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

/-- The sum over the last axis of an `[a, b]` array, from the zero word, at `i`. -/
theorem sum_last2_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = _
  refine Finset.sum_congr rfl fun j _ => congrArg src (funext fun ax => Fin.ext ?_)
  match ax with
  | ⟨0, _⟩ => rfl
  | ⟨1, _⟩ => rfl

/-- The sum over the first axis of an `[a, b]` array, from the zero word, at `j`. -/
theorem sum_first2_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = _
  refine Finset.sum_congr rfl fun i _ => congrArg src (funext fun ax => Fin.ext ?_)
  match ax with
  | ⟨0, _⟩ => rfl
  | ⟨1, _⟩ => rfl

end Cert.LibAxisSums
-- ==== Proof.LibMinReduce.lean ====
/-
  Minimum reductions over one axis, on the extended reals.

  * `fold_min_top`: folding `min` from the top element over all of a finite type gives the infimum of the family
    (both are characterised by: `z` is below the result iff `z` is below every member).
  * `multiReduction_minimumf_single`: a vector min-reduction over one axis, read with exact values, is at each result
    index the fold of `min` from the accumulator's value over that axis's coordinates (the companion of the library's
    statement for the maximum).
  * `multiReduction_minimumf_inf`: with the accumulator `+∞` that fold is the infimum over the axis.
-/
import Idealize.ShloMosaic.PureOps.Ideal.Laws

noncomputable section

namespace Cert.LibMinReduce

open Idealize.ShloMosaic

/-- Folding `min` from `⊤` over a whole finite type is the infimum of the family. -/
theorem fold_min_top {ι : Type*} [Fintype ι] (f : ι → EReal) :
    (Finset.univ : Finset ι).fold min ⊤ f = ⨅ k, f k := by
  refine eq_of_forall_le_iff fun z => ?_
  rw [Finset.le_fold_min, le_iInf_iff]
  exact ⟨fun h k => h.2 k (Finset.mem_univ k), fun h => ⟨le_top, fun k _ => h k⟩⟩

/-- The f32 pattern of `+∞` is the top extended real. -/
theorem ofBits_inf : Ideal.ofBits .f32 0x7F800000#32 = (⊤ : EReal) := by
  simp [Ideal.ofBits, Ideal.ieee]

variable {φ : FTy}

/-- A float min-reduction over one axis, read with exact values: the fold of `min` from the accumulator's value over that
    axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- From the accumulator `+∞` (f32), a min-reduction over one axis is the infimum over that axis's coordinates. -/
theorem multiReduction_minimumf_inf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j = ⨅ k : Fin (s.size a), src (h.lift j k) := by
  rw [multiReduction_minimumf_single]
  show (Finset.univ : Finset (Fin (s.size a))).fold min (Ideal.ofBits .f32 0x7F800000#32) (src ∘ h.lift j) = _
  rw [ofBits_inf, fold_min_top]
  rfl

end Cert.LibMinReduce

end
-- ==== Proof.LibLayout.lean ====
import Idealize.ShloMosaic.Lib.Pipeline.Value
import Idealize.ShloMosaic.Lib.ValueIdx
import Idealize.ShloMosaic.Lib.ValueLayout

/-! # Shape casts and broadcasts read at an index, by coordinates

A shape cast reads the operand at the index with the same row-major position; a broadcast reads it at the same
coordinates, `0` on the operand's unit axes. Each statement names both indices by their coordinates, at any extents:
casts that add unit axes, casts that merge the leading axes into one or split one into several, and broadcasts along
unit axes. -/

namespace Cert.LibLayout

open Idealize.ShloMosaic Idealize.ShloMosaic.ValueIdx
variable {α : Type}

/-! ## Unit axes added by a shape cast -/

/-- An `[a, b, c]` array cast to `[a, 1, b, c]`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu]; simp only [Nat.mul_one, Nat.add_zero, Nat.zero_mul, Nat.zero_add])

/-- An `[a, b]` array cast to `[1, 1, a, b]`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp only [Nat.mul_one, Nat.add_zero, Nat.zero_mul, Nat.zero_add])

/-- An `[a]` array cast to `[1, 1, 1, a]`. -/
theorem shapeCast_a_111a_apply {a : ℕ} (x : (⟨1, ![a]⟩ : Shape).Idx → α)
    (h : (⟨1, ![a]⟩ : Shape).ShapeCasts ⟨4, ![1, 1, 1, a]⟩) (u v w : Fin 1) (i : Fin a) :
    shapeCast ⟨4, ![1, 1, 1, a]⟩ x h (ix4 u v w i) = x (ix1 i) :=
  shapeCast_apply x h _ _ (by
    have hu : u.val = 0 := by omega
    have hv : v.val = 0 := by omega
    have hw : w.val = 0 := by omega
    rw [Shape.rowMajor_val_one, Shape.rowMajor_val_four]
    show i.val = ((u.val * 1 + v.val) * 1 + w.val) * a + i.val
    rw [hu, hv, hw]; simp only [Nat.mul_one, Nat.add_zero, Nat.zero_mul, Nat.zero_add])

/-- An `[a]` array cast to `[1, 1, a]`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]; simp only [Nat.mul_one, Nat.add_zero, Nat.zero_mul, Nat.zero_add])

/-- An `[a, b, c]` array cast to `[a, b, c, 1]`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu]; simp only [Nat.mul_one, Nat.add_zero, Nat.zero_mul, Nat.zero_add])

/-- An `[a, b]` array cast to `[a, 1, b]`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu]; simp only [Nat.mul_one, Nat.add_zero, Nat.zero_mul, Nat.zero_add])

/-- An `[a, b]` array cast to `[a, b, 1]`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu]; simp only [Nat.mul_one, Nat.add_zero, Nat.zero_mul, Nat.zero_add])

/-! ## Leading axes merged into one, or one split into several -/

/-- An `[a, b, c, d]` array cast to `[n, d]` (the three leading axes merged): row `r` is the leading coordinates' row-major position. -/
theorem shapeCast_abcd_nd_apply {a b c d n : ℕ} (x : (⟨4, ![a, b, c, d]⟩ : Shape).Idx → α)
    (h : (⟨4, ![a, b, c, d]⟩ : Shape).ShapeCasts ⟨2, ![n, d]⟩) (i : Fin a) (j : Fin b) (k : Fin c) (l : Fin d) (r : Fin n) (hr : r.val = (i.val * b + j.val) * c + k.val) :
    shapeCast ⟨2, ![n, d]⟩ x h (ix2 r l) = x (ix4 i j k l) :=
  shapeCast_apply x h _ _ (by
    rw [Shape.rowMajor_val_four, Shape.rowMajor_val_two]
    show ((i.val * b + j.val) * c + k.val) * d + l.val = r.val * d + l.val
    rw [hr])

/-- An `[n, d]` array cast to `[a, b, c, d]` (the leading axis split in three). -/
theorem shapeCast_nd_abcd_apply {a b c d n : ℕ} (x : (⟨2, ![n, d]⟩ : Shape).Idx → α)
    (h : (⟨2, ![n, d]⟩ : Shape).ShapeCasts ⟨4, ![a, b, c, d]⟩) (i : Fin a) (j : Fin b) (k : Fin c) (l : Fin d) (r : Fin n) (hr : r.val = (i.val * b + j.val) * c + k.val) :
    shapeCast ⟨4, ![a, b, c, d]⟩ x h (ix4 i j k l) = x (ix2 r l) :=
  shapeCast_apply x h _ _ (by
    rw [Shape.rowMajor_val_two, Shape.rowMajor_val_four]
    show r.val * d + l.val = ((i.val * b + j.val) * c + k.val) * d + l.val
    rw [hr])

/-- An `[a, b, c]` array cast to `[n, c]` (the two leading axes merged). -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n) (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` (the leading axis split in two). -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-! ## Broadcasts along unit axes -/

/-- An `[a, 1, c, d]` array broadcast to `[a, b, c, d]`. -/
theorem broadcastTo_a1cd_abcd_apply {a b c d : ℕ} (x : (⟨4, ![a, 1, c, d]⟩ : Shape).Idx → α)
    (h : (⟨4, ![a, 1, c, d]⟩ : Shape).Broadcasts ⟨4, ![a, b, c, d]⟩) (i : Fin a) (j : Fin b) (k : Fin c) (l : Fin d) :
    broadcastTo ⟨4, ![a, b, c, d]⟩ x h (ix4 i j k l) = x (ix4 i (0 : Fin 1) k l) := by
  refine broadcastTo_apply x h (ix4 i j k l) (ix4 i (0 : Fin 1) k l) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, b, c, d]` array broadcast to `[a, b, c, d]`. -/
theorem broadcastTo_1bcd_abcd_apply {a b c d : ℕ} (x : (⟨4, ![1, b, c, d]⟩ : Shape).Idx → α)
    (h : (⟨4, ![1, b, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) j k l) := by
  refine broadcastTo_apply x h (ix4 i j k l) (ix4 (0 : Fin 1) j k l) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, c, d]` array broadcast to `[a, b, c, d]`. -/
theorem broadcastTo_11cd_abcd_apply {a b c d : ℕ} (x : (⟨4, ![1, 1, c, d]⟩ : Shape).Idx → α)
    (h : (⟨4, ![1, 1, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) k l) := by
  refine broadcastTo_apply x h (ix4 i j k l) (ix4 (0 : Fin 1) (0 : Fin 1) k l) fun ax => ?_
  match ax with
  | ⟨0, _⟩ => rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, 1, d]` array broadcast to `[a, b, c, d]`. -/
theorem broadcastTo_111d_abcd_apply {a b c d : ℕ} (x : (⟨4, ![1, 1, 1, d]⟩ : Shape).Idx → α)
    (h : (⟨4, ![1, 1, 1, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) (0 : Fin 1) l) := by
  refine broadcastTo_apply x h (ix4 i j k l) (ix4 (0 : Fin 1) (0 : Fin 1) (0 : Fin 1) l) fun ax => ?_
  match ax with
  | ⟨0, _⟩ => rfl
  | ⟨1, _⟩ => rfl
  | ⟨2, _⟩ => rfl
  | ⟨3, _⟩ =>
    show l.val = if d = 1 then 0 else l.val
    split
    · have := l.isLt; omega
    · rfl

/-- An `[a, b, c, 1]` array broadcast to `[a, b, c, d]`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1, c]` array broadcast to `[a, b, c]`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibLayout
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.KernelBlock.lean ====
import proofs.«167936_j71502615544388_2_alg».proof.Proof.Gen.KernelIdeal.Skeleton
import proofs.«167936_j71502615544388_2_alg».proof.Proof.Spec
import proofs.«167936_j71502615544388_2_alg».proof.Proof.LibAxisSums
import proofs.«167936_j71502615544388_2_alg».proof.Proof.LibMinReduce
import proofs.«167936_j71502615544388_2_alg».proof.Proof.LibLayout
import proofs.«167936_j71502615544388_2_alg».proof.Proof.LibColumnCast
import proofs.«167936_j71502615544388_2_alg».proof.Proof.LibColumnBroadcast
import Idealize.ShloMosaic.Lib.Pipeline.Value
import Idealize.ShloMosaic.Lib.ValueIdx

/-! # One block of 32 classes, at exact values

The body at one grid point holds the positives and the negatives of 32 consecutive classes as two [32,1,32,512]
arrays. Stage by stage: the two slabs as [32,32,512] arrays; the centroids, a [32,1,512] array, spread over the 32
samples; the squared distances of every sample to its class's centroid, a [32,32] array for each polarity; per class
the least of the negatives' distances, spread over the samples; the charges; their total over samples and classes,
a [1,1] array. Each stage read at an index is the matching piece of the mean hinge loss's definition, so the value
the body adds to the running total is the sum of the block's 32 class losses. -/

noncomputable section

namespace Cert.KernelIdeal.Block

open Idealize.ShloMosaic Idealize.ShloMosaic.ValueIdx Cert.KernelIdeal Cert.KernelIdeal.Gen
open scoped BigOperators

/-- One polarity's samples of the block as a [32,32,512] array: class, sample, coordinate. -/
def slab (v : Vec Ideal S32x1x32x512 .f32) : FVec Ideal S32x32x512 .f32 :=
  shapeCast S32x32x512 v shapeCasts_S32x1x32x512_S32x32x512

theorem slab_apply (v : Vec Ideal S32x1x32x512 .f32) (c s : Fin 32) (d : Fin 512) :
    slab v (ix3 c s d) = v (ix4 c (0 : Fin 1) s d) :=
  Cert.LibAxisSums.shapeCast_a1bc_abc_apply v shapeCasts_S32x1x32x512_S32x32x512 c s d

/-- The centroids of the block's classes: the positives summed over the samples and divided by their number. -/
def centroidVec (P : FVec Ideal S32x32x512 .f32) : FVec Ideal S32x1x512 .f32 :=
  divf (shapeCast S32x1x512 (multiReduction .add [1] S32x512 P 0x00000000#32 reduces_S32x32x512_S32x512 (.inl rfl) rfl)
      shapeCasts_S32x512_S32x1x512)
    (broadcast S32x1x512 (Scalar.ofBits .f32 0x42000000#32))

theorem centroidVec_apply (P : FVec Ideal S32x32x512 .f32) (c : Fin 32) (u : Fin 1) (d : Fin 512) :
    centroidVec P (ix3 c u d) = Cert.Hinge.centroid (fun s d' => P (ix3 c s d')) d := by
  show Ideal.div (shapeCast S32x1x512 _ shapeCasts_S32x512_S32x1x512 (ix3 c u d)) (Ideal.ofBits .f32 0x42000000#32)
    = Ideal.div (∑ s : Fin 32, P (ix3 c s d)) (Ideal.ofBits .f32 0x42000000#32)
  refine congrArg (fun z => Ideal.div z (Ideal.ofBits .f32 0x42000000#32)) ?_
  refine (Cert.LibLayout.shapeCast_ab_a1b_apply _ shapeCasts_S32x512_S32x1x512 c u d).trans ?_
  exact Cert.LibAxisSums.sum_mid3_apply P reduces_S32x32x512_S32x512 (.inl rfl) rfl c d

/-- The centroids repeated for each of the 32 samples. -/
def spread (C : FVec Ideal S32x1x512 .f32) : FVec Ideal S32x32x512 .f32 :=
  broadcastTo S32x32x512 C broadcasts_S32x1x512_S32x32x512

theorem spread_apply (C : FVec Ideal S32x1x512 .f32) (c s : Fin 32) (d : Fin 512) :
    spread C (ix3 c s d) = C (ix3 c (0 : Fin 1) d) :=
  Cert.LibLayout.broadcastTo_a1c_abc_apply C broadcasts_S32x1x512_S32x32x512 c s d

/-- The squared distances between the points of two [32,32,512] arrays, sample by sample. -/
def sqDistVec (X Y : FVec Ideal S32x32x512 .f32) : FVec Ideal S32x32 .f32 :=
  multiReduction .add [2] S32x32 (mulf (subf X Y) (subf X Y)) 0x00000000#32 reduces_S32x32x512_S32x32 (.inl rfl) rfl

theorem sqDistVec_apply (X Y : FVec Ideal S32x32x512 .f32) (c s : Fin 32) :
    sqDistVec X Y (ix2 c s) = Cert.Hinge.sqDist (fun d => X (ix3 c s d)) (fun d => Y (ix3 c s d)) :=
  Cert.LibAxisSums.sum_last3_apply (mulf (subf X Y) (subf X Y)) reduces_S32x32x512_S32x32 (.inl rfl) rfl c s

/-- Per class the least of a [32,32] array's entries over the samples, repeated for each sample. -/
def leastVec (N : FVec Ideal S32x32 .f32) : FVec Ideal S32x32 .f32 :=
  broadcastTo S32x32 (shapeCast S32x1 (multiReduction .minimumf [1] S32 N 0x7F800000#32 reduces_S32x32_S32 (.inl rfl) rfl)
    shapeCasts_S32_S32x1) broadcasts_S32x1_S32x32

theorem leastVec_apply (N : FVec Ideal S32x32 .f32) (c s : Fin 32) :
    leastVec N (ix2 c s) = ⨅ s' : Fin 32, N (ix2 c s') := by
  refine (Cert.LibColumnBroadcast.broadcastTo_a1_ab_apply _ broadcasts_S32x1_S32x32 c s).trans ?_
  refine (Cert.LibColumnCast.shapeCast_a_a1_apply _ shapeCasts_S32_S32x1 c (0 : Fin 1)).trans ?_
  refine (Cert.LibMinReduce.multiReduction_minimumf_inf N reduces_S32x32_S32 (.inl rfl) rfl (ix1 c)).trans ?_
  show ⨅ k : Fin 32, N (reduces_S32x32_S32.lift (ix1 c) k) = _
  refine iInf_congr fun k => congrArg N (funext fun ax => Fin.ext ?_)
  match ax with
  | ⟨0, _⟩ => rfl
  | ⟨1, _⟩ => rfl

/-- The charges: positive distance less the nearest negative's, plus the margin, clamped below at zero. -/
def chargeVec (AP AN : FVec Ideal S32x32 .f32) : FVec Ideal S32x32 .f32 :=
  maximumf (addf (subf AP AN) (broadcast S32x32 (Scalar.ofBits .f32 0x3E99999A#32)))
    (broadcast S32x32 (Scalar.ofBits .f32 0x00000000#32))

theorem chargeVec_apply (AP AN : FVec Ideal S32x32 .f32) (i : S32x32.Idx) :
    chargeVec AP AN i = max (AP i - AN i + Ideal.ofBits .f32 0x3E99999A#32) (Ideal.ofBits .f32 0x00000000#32) := rfl

/-- The total of a [32,32] array: over the samples, then over the classes, as a [1,1] array. -/
def totalVec (Q : FVec Ideal S32x32 .f32) : FVec Ideal S1x1 .f32 :=
  shapeCast S1x1 (multiReduction .add [0] S1
      (shapeCast S32x1 (multiReduction .add [1] S32 Q 0x00000000#32 reduces_S32x32_S32 (.inl rfl) rfl) shapeCasts_S32_S32x1)
      0x00000000#32 reduces_S32x1_S1 (.inl rfl) rfl) shapeCasts_S1_S1x1

theorem totalVec_apply (Q : FVec Ideal S32x32 .f32) (y : S1x1.Idx) :
    totalVec Q y = ∑ c : Fin 32, ∑ s : Fin 32, Q (ix2 c s) := by
  obtain ⟨p, q, rfl⟩ : ∃ (p q : Fin 1), y = ix2 p q := ⟨y 0, y 1, eq_ix2 y⟩
  refine (Cert.LibColumnCast.shapeCast_a_a1_apply _ shapeCasts_S1_S1x1 p q).trans ?_
  refine (Cert.LibAxisSums.sum_first2_apply _ reduces_S32x1_S1 (.inl rfl) rfl p).trans ?_
  refine Finset.sum_congr rfl fun c _ => ?_
  refine (Cert.LibColumnCast.shapeCast_a_a1_apply _ shapeCasts_S32_S32x1 c p).trans ?_
  exact Cert.LibAxisSums.sum_last2_apply Q reduces_S32x32_S32 (.inl rfl) rfl c

/-- The value the body adds the running total to: the stages composed. -/
theorem pay3_eq (v0 v2 : Vec Ideal S32x1x32x512 .f32) (v31 : Vec Ideal S1x1 .f32) :
    k0_pay3 (F := Ideal) v0 v2 v31 = addf (shapeCast S1x1 v31 shapeCasts_S1x1_S1x1)
      (totalVec (chargeVec (sqDistVec (spread (centroidVec (slab v0))) (slab v0))
        (leastVec (sqDistVec (slab v2) (spread (centroidVec (slab v0))))))) := rfl

/-- The running total after the body: what it was, plus the losses of the block's 32 classes. -/
theorem pay3_apply (v0 v2 : Vec Ideal S32x1x32x512 .f32) (v31 : Vec Ideal S1x1 .f32) (y : S1x1.Idx) :
    k0_pay3 (F := Ideal) v0 v2 v31 y
      = v31 y + ∑ c : Fin 32, Cert.Hinge.classLoss (fun s d => v0 (ix4 c (0 : Fin 1) s d)) (fun s d => v2 (ix4 c (0 : Fin 1) s d)) := by
  rw [pay3_eq, addf_apply, shapeCast_self, totalVec_apply]
  refine congrArg (v31 y + ·) (Finset.sum_congr rfl fun c _ => ?_)
  unfold Cert.Hinge.classLoss
  refine Finset.sum_congr rfl fun s _ => ?_
  have hC : ∀ (s' : Fin 32) (d : Fin 512), spread (centroidVec (slab v0)) (ix3 c s' d)
      = Cert.Hinge.centroid (fun s d => v0 (ix4 c (0 : Fin 1) s d)) d := by
    intro s' d
    rw [spread_apply, centroidVec_apply]
    simp only [slab_apply]
  rw [chargeVec_apply, sqDistVec_apply, leastVec_apply]
  simp only [sqDistVec_apply, hC, slab_apply]
  rfl

/-- The last point's division of the total by the number of classes. -/
theorem pay1_apply (v38 : Vec Ideal S1x1 .f32) (y : S1x1.Idx) :
    k0_pay1 (F := Ideal) v38 y = Ideal.div (v38 y) (Ideal.ofBits .f32 0x44800000#32) := by
  show Ideal.div (shapeCast S1x1 v38 shapeCasts_S1x1_S1x1 y) (Ideal.ofBits .f32 0x44800000#32) = _
  rw [shapeCast_self]

/-- The first point's reset of the total. -/
theorem pay2_apply (y : S1x1.Idx) : k0_pay2 (F := Ideal) y = Ideal.ofBits .f32 0x00000000#32 := rfl

end Cert.KernelIdeal.Block

end
-- ==== Proof.LibRectLoad4.lean ====
import Idealize.ShloMosaic.Lib.Pipeline.FrameBody
import Idealize.ShloMosaic.Lib.ValueIdx

/-! # A load through a rectangle of a rank-four array

A unit-stride rectangle of an `[n0, n1, n2, n3]` array with offsets `(o0, o1, o2, o3)` and extents
`[b0, b1, b2, b3]` names the entries at the offsets plus `(k0, k1, k2, k3)`, each `k` below its extent. Loading the
array through it gives the `[b0, b1, b2, b3]` array whose entry at `(k0, k1, k2, k3)` is the array's entry there: the
target index is named by its coordinates, so that a caller states it in the form it needs. -/

namespace Cert.LibRectLoad4

open Idealize.ShloMosaic Idealize.ShloMosaic.ValueIdx

/-- A load through a unit-stride rectangle of a rank-four array reads, at `(k0, k1, k2, k3)`, the array at the index
    whose coordinates are the rectangle's offsets plus those. -/
theorem ld4_apply {F : FTy → Type} {n0 n1 n2 n3 b0 b1 b2 b3 : ℕ} {e : EltTy} (X : Vec F ⟨4, ![n0, n1, n2, n3]⟩ e)
    (o0 o1 o2 o3 : ℕ)
    (inb : ∀ a, ![o0, o1, o2, o3] a + (⟨4, ![b0, b1, b2, b3]⟩ : Shape).size a ≤ (⟨4, ![n0, n1, n2, n3]⟩ : Shape).size a)
    (k0 : Fin b0) (k1 : Fin b1) (k2 : Fin b2) (k3 : Fin b3) (j0 : Fin n0) (j1 : Fin n1) (j2 : Fin n2) (j3 : Fin n3)
    (h0 : j0.val = o0 + k0.val) (h1 : j1.val = o1 + k1.val) (h2 : j2.val = o2 + k2.val) (h3 : j3.val = o3 + k3.val) :
    View.ld X (Rect.unit (s := ⟨4, ![n0, n1, n2, n3]⟩) ![o0, o1, o2, o3] (⟨4, ![b0, b1, b2, b3]⟩ : Shape).size inb)
        (ix4 k0 k1 k2 k3)
      = X (ix4 j0 j1 j2 j3) := by
  show X ((Rect.unit (s := ⟨4, ![n0, n1, n2, n3]⟩) ![o0, o1, o2, o3] (⟨4, ![b0, b1, b2, b3]⟩ : Shape).size inb).idx
    (ix4 k0 k1 k2 k3)) = _
  refine congrArg X (funext fun a => Fin.ext ?_)
  match a with
  | ⟨0, _⟩ => show o0 + 1 * k0.val = j0.val; omega
  | ⟨1, _⟩ => show o1 + 1 * k1.val = j1.val; omega
  | ⟨2, _⟩ => show o2 + 1 * k2.val = j2.val; omega
  | ⟨3, _⟩ => show o3 + 1 * k3.val = j3.val; omega

end Cert.LibRectLoad4
-- ==== Proof.StagedBlock.lean ====
import proofs.«167936_j71502615544388_2_alg».proof.Proof.Gen.KernelIdeal
import proofs.«167936_j71502615544388_2_alg».proof.Proof.LibRectLoad4
import Idealize.ShloMosaic.Lib.Pipeline.FrameBody
import Idealize.ShloMosaic.Lib.ValueIdx

/-! # The two halves of the staged block

The staged block of a grid point is a [32,2,32,512] array: 32 classes, each with its positives (polarity 0) and its
negatives (polarity 1). The body loads the two polarities separately, each as a [32,1,32,512] array; at an index
each load is the staged block at that class, sample and coordinate with the polarity put back. -/

noncomputable section

namespace Cert.KernelIdeal.Block

open Idealize.ShloMosaic Idealize.ShloMosaic.ValueIdx Cert.KernelIdeal Cert.KernelIdeal.Gen

variable {F : FTy → Type} [FloatOps F]

/-- The positives of the staged block. -/
def posOf (x : Vec F S32x2x32x512 .f32) : Vec F S32x1x32x512 .f32 :=
  View.ld x (Rect.unit (s := S32x2x32x512) ![0, 0, 0, 0] S32x1x32x512.size inb_S32x2x32x512_S32x1x32x512_0_0_0_0)

/-- The negatives of the staged block. -/
def negOf (x : Vec F S32x2x32x512 .f32) : Vec F S32x1x32x512 .f32 :=
  View.ld x (Rect.unit (s := S32x2x32x512) ![0, 1, 0, 0] S32x1x32x512.size inb_S32x2x32x512_S32x1x32x512_0_1_0_0)

theorem posOf_apply (x : Vec F S32x2x32x512 .f32) (k : Fin 32) (u : Fin 1) (s : Fin 32) (d : Fin 512) :
    posOf x (ix4 k u s d) = x (ix4 k (0 : Fin 2) s d) :=
  Cert.LibRectLoad4.ld4_apply x 0 0 0 0 inb_S32x2x32x512_S32x1x32x512_0_0_0_0 k u s d k (0 : Fin 2) s d
    (by omega) (by show (0 : ℕ) = 0 + u.val; omega) (by omega) (by omega)

theorem negOf_apply (x : Vec F S32x2x32x512 .f32) (k : Fin 32) (u : Fin 1) (s : Fin 32) (d : Fin 512) :
    negOf x (ix4 k u s d) = x (ix4 k (1 : Fin 2) s d) :=
  Cert.LibRectLoad4.ld4_apply x 0 1 0 0 inb_S32x2x32x512_S32x1x32x512_0_1_0_0 k u s d k (1 : Fin 2) s d
    (by omega) (by show (1 : ℕ) = 1 + u.val; omega) (by omega) (by omega)

end Cert.KernelIdeal.Block

end
-- ==== Proof.LibSegmentSum.lean ====
/-
  Sums over an initial segment of `Fin N`, for accumulations that proceed block by block.

  `segSum g n` is the sum of `g` over the indices below `n`.  The empty segment sums to zero (`segSum_zero`), the
  whole segment is the full sum (`segSum_all`), and a segment extended by a block of `W` indices is the segment's sum
  plus the block's (`segSum_add`): an accumulator that starts at zero and adds one block's sum per step holds, after
  the step that adds the block starting at `a`, the segment sum up to `a + W`, and after the last block the full sum.
  Stated in any commutative additive monoid, so it applies to the extended reals, which are not a group.
-/
import Mathlib.Algebra.BigOperators.Fin

open scoped BigOperators

namespace SegmentSum

variable {M : Type*} [AddCommMonoid M] {N : ℕ}

/-- The sum of `g` over the indices of `Fin N` below `n` (indices from `N` on contribute nothing). -/
def segSum (g : Fin N → M) (n : ℕ) : M :=
  ∑ r ∈ Finset.range n, if h : r < N then g ⟨r, h⟩ else 0

/-- The empty segment sums to zero. -/
theorem segSum_zero (g : Fin N → M) : segSum g 0 = 0 := by
  unfold segSum; rw [Finset.range_zero, Finset.sum_empty]

/-- The whole segment is the full sum. -/
theorem segSum_all (g : Fin N → M) : segSum g N = ∑ r : Fin N, g r := by
  unfold segSum
  rw [Finset.sum_range]
  exact Finset.sum_congr rfl fun i _ => by rw [dif_pos i.isLt]

/-- A segment extended by a block of `W` indices: the segment's sum plus the block's. -/
theorem segSum_add (g : Fin N → M) (a W : ℕ) (h : a + W ≤ N) :
    segSum g (a + W) = segSum g a + ∑ p : Fin W, g ⟨a + p.val, by have := p.isLt; omega⟩ := by
  unfold segSum
  rw [Finset.sum_range_add]
  refine congrArg _ ?_
  rw [Finset.sum_range]
  exact Finset.sum_congr rfl fun p _ => by rw [dif_pos (by have := p.isLt; omega)]

end SegmentSum
-- ==== Proof.KernelSteps.lean ====
import proofs.«167936_j71502615544388_2_alg».proof.Proof.KernelBlock
import proofs.«167936_j71502615544388_2_alg».proof.Proof.StagedBlock
import proofs.«167936_j71502615544388_2_alg».proof.Proof.LibSegmentSum
import Idealize.ShloMosaic.PureOps.Ideal.Laws

/-! # The running total, one grid point at a time

With the input read as a function of class, polarity, sample and coordinate, the staged block of a grid point holds
32 consecutive classes starting at some class `a`. The body's payload then adds, to the total it finds, the losses of
the classes `a, …, a + 31`. So if the total it finds is the sum of the losses of the classes below `a`, the total it
leaves is the sum of the losses of the classes below `a + 32`; the first point starts from the zero word, and the last
point divides by the number of classes. -/

noncomputable section

namespace Cert.KernelIdeal.Block

open Idealize.ShloMosaic Idealize.ShloMosaic.ValueIdx Cert.KernelIdeal Cert.KernelIdeal.Gen SegmentSum
open scoped BigOperators

/-- The loss of class `K` of the input `A`. -/
def lossOf (A : Fin 1024 → Fin 2 → Fin 32 → Fin 512 → EReal) (K : Fin 1024) : EReal :=
  Cert.Hinge.classLoss (A K 0) (A K 1)

/-- The losses of the staged block's 32 classes are those of the classes `a, …, a + 31` of the input. -/
theorem block_sum (A : Fin 1024 → Fin 2 → Fin 32 → Fin 512 → EReal) (x : Vec Ideal S32x2x32x512 .f32) (a : ℕ)
    (ha : a + 32 ≤ 1024)
    (hx : ∀ (k : Fin 32) (u : Fin 2) (s : Fin 32) (d : Fin 512), x (ix4 k u s d) = A ⟨a + k.val, by omega⟩ u s d) :
    ∑ k : Fin 32, Cert.Hinge.classLoss (fun s d => posOf x (ix4 k (0 : Fin 1) s d)) (fun s d => negOf x (ix4 k (0 : Fin 1) s d))
      = ∑ p : Fin 32, lossOf A ⟨a + p.val, by omega⟩ := by
  refine Finset.sum_congr rfl fun k _ => ?_
  simp only [posOf_apply, negOf_apply, hx]
  rfl

/-- A point that finds the total of the classes below `a` leaves the total of the classes below `a + 32`. -/
theorem step_mid (A : Fin 1024 → Fin 2 → Fin 32 → Fin 512 → EReal) (x : Vec Ideal S32x2x32x512 .f32) (a : ℕ)
    (ha : a + 32 ≤ 1024)
    (hx : ∀ (k : Fin 32) (u : Fin 2) (s : Fin 32) (d : Fin 512), x (ix4 k u s d) = A ⟨a + k.val, by omega⟩ u s d)
    (xo : Vec Ideal S1x1 .f32) (hxo : xo = fun _ => segSum (lossOf A) a) :
    k0_pay3 (F := Ideal) (posOf x) (negOf x) xo = fun _ => segSum (lossOf A) (a + 32) := by
  funext y
  rw [pay3_apply, block_sum A x a ha hx, hxo, segSum_add (lossOf A) a 32 ha]

/-- The last point divides the total it leaves by the number of classes. -/
theorem step_last (A : Fin 1024 → Fin 2 → Fin 32 → Fin 512 → EReal) (x : Vec Ideal S32x2x32x512 .f32) (a : ℕ)
    (ha : a + 32 ≤ 1024)
    (hx : ∀ (k : Fin 32) (u : Fin 2) (s : Fin 32) (d : Fin 512), x (ix4 k u s d) = A ⟨a + k.val, by omega⟩ u s d)
    (xo : Vec Ideal S1x1 .f32) (hxo : xo = fun _ => segSum (lossOf A) a) :
    k0_pay1 (F := Ideal) (k0_pay3 (F := Ideal) (posOf x) (negOf x) xo)
      = fun _ => Ideal.div (segSum (lossOf A) (a + 32)) (Ideal.ofBits .f32 0x44800000#32) := by
  funext y
  rw [pay1_apply, step_mid A x a ha hx xo hxo]

/-- The first point, which resets the total to the zero word first, leaves the total of the first 32 classes. -/
theorem step_first (A : Fin 1024 → Fin 2 → Fin 32 → Fin 512 → EReal) (x : Vec Ideal S32x2x32x512 .f32)
    (hx : ∀ (k : Fin 32) (u : Fin 2) (s : Fin 32) (d : Fin 512), x (ix4 k u s d) = A ⟨0 + k.val, by omega⟩ u s d) :
    k0_pay3 (F := Ideal) (posOf x) (negOf x) (k0_pay2 (F := Ideal)) = fun _ => segSum (lossOf A) (0 + 32) := by
  refine step_mid A x 0 (by omega) hx _ ?_
  funext y
  rw [pay2_apply, Ideal.ofBits_zero_f32, segSum_zero]

end Cert.KernelIdeal.Block

end
-- ==== Proof.KernelPieces.lean ====
import proofs.«167936_j71502615544388_2_alg».proof.Proof.Gen.KernelIdeal.Frame
import proofs.«167936_j71502615544388_2_alg».proof.Proof.StagedBlock
import Idealize.ShloMosaic.Lib.Pipeline.Value
import Idealize.ShloMosaic.Lib.Tactic

/-! # What each case of the body leaves in the output's staging buffer

The body has three cases. At the first grid point it stores the zero block, then the payload over the two loads of
the staged block and the block it has just stored. At a middle point it stores the payload over the two loads and
the total the point before left. At the last point it stores that payload and then, over it, the payload divided by
the number of classes. In every case the last store covers the one-entry buffer, so the buffer ends at that store's
value. -/

noncomputable section

namespace Cert.KernelIdeal.Block

open Idealize.ShloMosaic Idealize.ShloMosaic.TcCoe Idealize.SL.Sem Cert.KernelIdeal Cert.KernelIdeal.Gen

variable {F : FTy → Type} [FloatOps F]

theorem zero_offsets : (![0, 0] : Fin 2 → Nat) = fun _ => 0 := funext fun a => by fin_cases a <;> rfl

/-- The first point: the payload over the reset total. -/
theorem out_first (c : Dev nD) (i : grid0.Coords) (a1 : Memref sig .tc .vmem S32x2x32x512 .f32) (h1 : a1.IsWhole)
    (a2 : Memref sig .tc .vmem S1x1 .f32) (h2 : a2.IsWhole) (hc0 : cond0_0 i) (hc1 : ¬cond0_1 i)
    (x0 : Vec F S32x2x32x512 .f32) :
    out0_A_1 c i a1 h1 a2 h2 hc0 hc1 x0 = k0_pay3 (posOf x0) (negOf x0) (k0_pay2 (F := F)) := by
  unfold out0_A_1
  rw [View.read_writes_eq_canon _ _ _ (cover0_A_1 c i a1 h1 a2 h2 hc0 hc1 x0)]
  unfold kernelRun0_A
  dsimp only
  sl_unfold_words
  rw [View.canon_cons_unit_zero (S := S1x1) zero_offsets, View.readCov_unit_zero (S := S1x1) _ zero_offsets]
  simp only [View.readAt_eq_ld, h1.read_unread]
  rfl

/-- A middle point: the payload over the total the point before left. -/
theorem out_mid (c : Dev nD) (i : grid0.Coords) (a1 : Memref sig .tc .vmem S32x2x32x512 .f32) (h1 : a1.IsWhole)
    (a2 : Memref sig .tc .vmem S1x1 .f32) (h2 : a2.IsWhole) (hc0 : ¬cond0_0 i) (hc1 : ¬cond0_1 i)
    (x0 : Vec F S32x2x32x512 .f32) (xo1 : Vec F S1x1 .f32) :
    out0_B_1 c i a1 h1 a2 h2 hc0 hc1 x0 xo1 = k0_pay3 (posOf x0) (negOf x0) xo1 := by
  unfold out0_B_1
  rw [View.read_writes_eq_canon _ _ _ (cover0_B_1 c i a1 h1 a2 h2 hc0 hc1 x0 xo1)]
  unfold kernelRun0_B
  dsimp only
  sl_unfold_words
  rw [View.canon_unit_zero zero_offsets]
  simp only [View.readAt_eq_ld, h1.read_unread, h2.read_unread, View.ld_unit_zero (S := S1x1) zero_offsets]
  rfl

/-- The last point: that payload, divided. -/
theorem out_last (c : Dev nD) (i : grid0.Coords) (a1 : Memref sig .tc .vmem S32x2x32x512 .f32) (h1 : a1.IsWhole)
    (a2 : Memref sig .tc .vmem S1x1 .f32) (h2 : a2.IsWhole) (hc0 : ¬cond0_0 i) (hc1 : cond0_1 i)
    (x0 : Vec F S32x2x32x512 .f32) (xo1 : Vec F S1x1 .f32) :
    out0_C_1 c i a1 h1 a2 h2 hc0 hc1 x0 xo1 = k0_pay1 (k0_pay3 (posOf x0) (negOf x0) xo1) := by
  unfold out0_C_1
  rw [View.read_writes_eq_canon _ _ _ (cover0_C_1 c i a1 h1 a2 h2 hc0 hc1 x0 xo1)]
  unfold kernelRun0_C
  dsimp only
  sl_unfold_words
  rw [View.canon_cons_unit_zero (S := S1x1) zero_offsets, View.readCov_unit_zero (S := S1x1) _ zero_offsets]
  simp only [View.readAt_eq_ld, h1.read_unread, h2.read_unread, View.ld_unit_zero (S := S1x1) zero_offsets]
  rfl

end Cert.KernelIdeal.Block

end
-- ==== Proof.KernelTotal.lean ====
import proofs.«167936_j71502615544388_2_alg».proof.Proof.Gen.KernelIdeal.Frame
import proofs.«167936_j71502615544388_2_alg».proof.Proof.KernelSteps
import proofs.«167936_j71502615544388_2_alg».proof.Proof.KernelPieces
import Idealize.ShloMosaic.Lib.Pipeline.Value
import Idealize.ShloMosaic.Lib.StableHlo.Run
import Idealize.ShloMosaic.Lib.Tactic

/-! # The kernel's result is the mean hinge loss

The region finds its input as the argument reshaped to class, polarity, sample and coordinate; the block of grid
point `t` holds the classes `32 t, …, 32 t + 31`. By induction on the point, the one-entry output buffer holds after
point `n` the sum of the losses of the classes below `32 (n + 1)` — and after the last point that sum, over all 1024
classes, divided by their number: the mean loss. Only the last point writes the buffer back, and its block is the
whole [1,1] array; the reshape after the region reads that entry as the scalar result. -/

noncomputable section

namespace Cert.KernelIdeal.Total

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Block SegmentSum

variable (m : (ℓ : Loc nD τ sig) → Buf (Elt Ideal) ℓ) (ρ : Dev nD → PrngReg)

/-- The argument reshaped, as a function of class, polarity, sample and coordinate. -/
def arr (c : Dev nD) : Fin 1024 → Fin 2 → Fin 32 → Fin 512 → EReal :=
  fun K u s d => shapeCast S1024x2x32x512 (m ((c : Thread nD τ).loc main_arg0)) shapeCasts_S65536x512_S1024x2x32x512 (ix4 K u s d)

/-- The region finds its input at the argument reshaped: the one host operation before it. -/
theorem V_main_v0 (c : Dev nD) :
    (V m c main_v0 : S1024x2x32x512.Idx → EReal)
      = shapeCast S1024x2x32x512 (m ((c : Thread nD τ).loc main_arg0)) shapeCasts_S65536x512_S1024x2x32x512 := by
  show StableHlo.after hostOps0 (fun b => m (c, b)) (Proc.devRef .tc main_v0) = _
  after_results
  rfl

/-- The input window's block index at point `t` is `(t, 0, 0, 0)`: decided over the grid. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- The block of point `t` holds the classes from `32 t` on. -/
theorem iblk_apply (c : Dev nD) (t : Fin cfg0.N) (k : Fin 32) (u : Fin 2) (s : Fin 32) (d : Fin 512)
    (h : 32 * t.val + k.val < 1024) :
    (iblk m c 0 t : Vec Ideal S32x2x32x512 .f32) (ix4 k u s d) = arr m c ⟨32 * t.val + k.val, h⟩ u s d := by
  show V m c main_v0 (((cfg0.win 0).blk t).view.emb (ix4 k u s d)) = _
  unfold arr
  rw [← V_main_v0]
  refine congrArg (V m c main_v0) (funext fun a => Fin.ext ?_)
  obtain ⟨e0, e1, e2, e3⟩ := idx_facts t
  match a with
  | ⟨0, _⟩ => show win0_0.index t (0 : Fin 4) * 32 + 1 * k.val = 32 * t.val + k.val; rw [e0]; omega
  | ⟨1, _⟩ => show win0_0.index t (1 : Fin 4) * 2 + 1 * u.val = u.val; rw [e1]; omega
  | ⟨2, _⟩ => show win0_0.index t (2 : Fin 4) * 32 + 1 * s.val = s.val; rw [e2]; omega
  | ⟨3, _⟩ => show win0_0.index t (3 : Fin 4) * 512 + 1 * d.val = d.val; rw [e3]; omega

/-! ## What the output buffer holds after each point -/

/-- After the first point: the payload over the reset total. -/
theorem at_first (c : Dev nD) (t : Fin cfg0.N) (h0 : t.val % 32 = 0) (h1 : ¬t.val % 32 = 31) :
    outsAt0 m c t.val t.isLt = k0_pay3 (posOf (iblk m c 0 t)) (negOf (iblk m c 0 t)) (k0_pay2 (F := Ideal)) :=
  (outsAt0_A m c t h0 h1).trans
    (out_first c (grid0.coords t) (ms0_0 t) (hs0_0 t) (ms0_1 t) (hs0_1 t) ((hcond0_0 t).mpr h0)
      (fun h => h1 ((hcond0_1 t).mp h)) (iblk m c 0 t))

/-- After a middle point: the payload over what the point before left. -/
theorem at_mid (c : Dev nD) (t : Fin cfg0.N) (h0 : ¬t.val % 32 = 0) (h1 : ¬t.val % 32 = 31) :
    outsAt0 m c t.val t.isLt = k0_pay3 (posOf (iblk m c 0 t)) (negOf (iblk m c 0 t))
      (outsAt0 m c (t.val - 1) (Nat.lt_of_le_of_lt (Nat.sub_le _ _) t.isLt)) :=
  (outsAt0_B m c t h0 h1).trans
    (out_mid c (grid0.coords t) (ms0_0 t) (hs0_0 t) (ms0_1 t) (hs0_1 t) (fun h => h0 ((hcond0_0 t).mp h))
      (fun h => h1 ((hcond0_1 t).mp h)) (iblk m c 0 t) (outsAt0 m c (t.val - 1) (Nat.lt_of_le_of_lt (Nat.sub_le _ _) t.isLt)))

/-- After the last point: that payload, divided. -/
theorem at_last (c : Dev nD) (t : Fin cfg0.N) (h0 : ¬t.val % 32 = 0) (h1 : t.val % 32 = 31) :
    outsAt0 m c t.val t.isLt = k0_pay1 (k0_pay3 (posOf (iblk m c 0 t)) (negOf (iblk m c 0 t))
      (outsAt0 m c (t.val - 1) (Nat.lt_of_le_of_lt (Nat.sub_le _ _) t.isLt))) :=
  (outsAt0_C m c t h0 h1).trans
    (out_last c (grid0.coords t) (ms0_0 t) (hs0_0 t) (ms0_1 t) (hs0_1 t) (fun h => h0 ((hcond0_0 t).mp h))
      ((hcond0_1 t).mpr h1) (iblk m c 0 t) (outsAt0 m c (t.val - 1) (Nat.lt_of_le_of_lt (Nat.sub_le _ _) t.isLt)))

/-- THE RUNNING TOTAL: after point `n` the buffer holds the sum of the losses of the classes below `32 (n + 1)`, at
    the last point divided by the number of classes. By induction on the point. -/
theorem outsAt_eq (c : Dev nD) : ∀ (n : ℕ) (h : n < cfg0.N),
    outsAt0 m c n h = if n = 31
      then (fun _ => Ideal.div (segSum (lossOf (arr m c)) (32 * (n + 1))) (Ideal.ofBits .f32 0x44800000#32))
      else fun _ => segSum (lossOf (arr m c)) (32 * (n + 1))
  | 0, h => by
    rw [if_neg (by decide)]
    refine (at_first m c ⟨0, h⟩ rfl (by show ¬(0 % 32 = 31); decide)).trans ?_
    exact step_first (arr m c) (iblk m c 0 ⟨0, h⟩)
      (fun k u s d => iblk_apply m c ⟨0, h⟩ k u s d (by have := k.isLt; dsimp only; omega))
  | n + 1, h => by
    have hn : n + 1 < 32 := lt_of_lt_of_eq h N_0
    have ih := outsAt_eq c n (Nat.lt_of_succ_lt h)
    rw [if_neg (by omega)] at ih
    have hx : ∀ (k : Fin 32) (u : Fin 2) (s : Fin 32) (d : Fin 512),
        (iblk m c 0 ⟨n + 1, h⟩ : Vec Ideal S32x2x32x512 .f32) (ix4 k u s d)
          = arr m c ⟨32 * (n + 1) + k.val, by have := k.isLt; omega⟩ u s d :=
      fun k u s d => iblk_apply m c ⟨n + 1, h⟩ k u s d (by have := k.isLt; dsimp only; omega)
    have e : 32 * (n + 1 + 1) = 32 * (n + 1) + 32 := by omega
    rw [e]
    by_cases hl : n + 1 = 31
    · rw [if_pos hl]
      refine (at_last m c ⟨n + 1, h⟩ (by dsimp only; omega) (by dsimp only; omega)).trans ?_
      exact step_last (arr m c) (iblk m c 0 ⟨n + 1, h⟩) (32 * (n + 1)) (by omega) hx
        (outsAt0 m c n (Nat.lt_of_succ_lt h)) ih
    · rw [if_neg hl]
      refine (at_mid m c ⟨n + 1, h⟩ (by dsimp only; omega) (by dsimp only; omega)).trans ?_
      exact step_mid (arr m c) (iblk m c 0 ⟨n + 1, h⟩) (32 * (n + 1)) (by omega) hx
        (outsAt0 m c n (Nat.lt_of_succ_lt h)) ih

/-- After the last point the buffer holds the mean loss. -/
theorem last_eq (c : Dev nD) (h : 31 < cfg0.N) :
    outsAt0 m c 31 h = fun _ => Cert.Hinge.meanLoss (arr m c) := by
  rw [outsAt_eq m c 31 h, if_pos rfl]
  funext _
  show Ideal.div (segSum (lossOf (arr m c)) 1024) (Ideal.ofBits .f32 0x44800000#32) = _
  rw [segSum_all]
  rfl

/-! ## The result array -/

/-- The one write-back, at the last point, writes the mean loss: its block is the whole [1,1] array. -/
theorem flushed_eq (c : Dev nD) (t : Fin cfg0.N) (hf : (cfg0.win 1).flush t = true) :
    (dats m 0 c).flushed 1 t = ((cfg0.win 1).blk t).view.read (Elt Ideal) (fun _ => Cert.Hinge.meanLoss (arr m c)) := by
  have hN : cfg0.N = 32 := N_0
  have h31 : t.val = 31 := by have := (flush0_1 t).mp hf; have := t.isLt; omega
  obtain ⟨n, hn⟩ := t
  obtain rfl : n = 31 := h31
  show (cfg0.win 1).cut (grid0.coords ⟨31, hn⟩) ((dats m 0 c).after 1 ⟨31, hn⟩) = _
  rw [after0_1, last_eq]
  rfl

/-- The output window's block is the whole [1,1] array at every point: decided over the grid. -/
theorem out_facts : ∀ t : Fin cfg0.N, win0_1.index t (0 : Fin 2) * win0_1.size 0 = 0
    ∧ win0_1.xsize (grid0.coords t) 0 = 1 ∧ win0_1.index t (1 : Fin 2) * win0_1.size 1 = 0
    ∧ win0_1.xsize (grid0.coords t) 1 = 1 :=
  (by decide +kernel : ∀ t : Fin grid0.N, _)

/-- Every entry of the [1,1] array is in the last point's block. -/
theorem cover (c : Dev nD) (i : S1x1.Idx) :
    ∃ t : Fin cfg0.N, (cfg0.win 1).flush t = true ∧ i ∈ ((cfg0.win 1).blk t).view.set := by
  have h31 : 31 < cfg0.N := by rw [show cfg0.N = 32 from N_0]; decide
  refine ⟨⟨31, h31⟩, (flush0_1 ⟨31, h31⟩).mpr rfl, ?_⟩
  show i ∈ ((View.whole main_v1).slice (win0_1.rect ⟨31, h31⟩)).set
  rw [View.set_slice_whole, Rect.mem_set_unit]
  intro a
  have h0 : (i 0 : Nat) < 1 := (i 0).isLt
  have h1 : (i 1 : Nat) < 1 := (i 1).isLt
  obtain ⟨f0, f1, f2, f3⟩ := out_facts ⟨31, h31⟩
  match a with
  | ⟨0, _⟩ =>
    show win0_1.index ⟨31, h31⟩ 0 * win0_1.size 0 ≤ (i 0 : Nat)
      ∧ (i 0 : Nat) < win0_1.index ⟨31, h31⟩ 0 * win0_1.size 0 + win0_1.xsize (grid0.coords ⟨31, h31⟩) 0
    rw [f0, f1]
    omega
  | ⟨1, _⟩ =>
    show win0_1.index ⟨31, h31⟩ 1 * win0_1.size 1 ≤ (i 1 : Nat)
      ∧ (i 1 : Nat) < win0_1.index ⟨31, h31⟩ 1 * win0_1.size 1 + win0_1.xsize (grid0.coords ⟨31, h31⟩) 1
    rw [f2, f3]
    omega

/-- So the [1,1] result array of the region ends holding the mean loss. -/
theorem final (c : Dev nD) : (dats m 0 c).arrAt 1 cfg0.N = fun _ => Cert.Hinge.meanLoss (arr m c) :=
  (dats m 0 c).arrAt_eq_of_cover 1 (fun _ => Cert.Hinge.meanLoss (arr m c)) (flushed_eq m c) (cover c)

/-- The reshape after the region reads it as the scalar result. -/
theorem tail_eq (c : Dev nD) :
    Pipeline.afterTail₀ cfgs (dats m) 0 (V0 m) [hostOps1] c main_v2 = fun _ => Cert.Hinge.meanLoss (arr m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = fun _ => Cert.Hinge.meanLoss (arr m c) :=
    (Pipeline.withArrays_arr spec0 launch0.win.arr_inj c _ _ 1).trans (final m c)
  rw [hw]
  rfl

/-- The run, read: the scalar result at the mean loss of the reshaped argument, the arguments unchanged. -/
theorem run : θ_run defs (onTc (τ := τ) (main (F := Ideal))) ⟨m, fun _ => 0, ρ⟩ fun r => ∀ c : Dev nD,
      r.2.mem ((c.tc : Thread nD τ).loc main_v2) = (fun _ => Cert.Hinge.meanLoss (arr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Total

end
-- ==== Proof.LibHostRowMin.lean ====
import Idealize.ShloMosaic.PureOps.Ideal.Laws
import Idealize.ShloMosaic.Lib.ValueIdx
import proofs.«167936_j71502615544388_2_alg».proof.Proof.LibMinReduce

/-! # A host minimum over the rows' entries

A host reduce by minimum over the last axis of an `[a, b]` array, from an initial value that is `+∞`, is at row `i`
the infimum of the row's entries: the fold of `min` over the axis's coordinates from the top element. (It uses the
fold-is-infimum law of the companion file on vector min-reductions.) -/

namespace Cert.LibHostRowMin

open Idealize.ShloMosaic Idealize.ShloMosaic.ValueIdx

/-- The host's min-reduce over the last axis of an `[a, b]` array from `+∞`, at row `i`: the infimum over the row. -/
theorem hostMin_last2_apply {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (hinit : init (Shape.Idx.first hu) = ⊤) (i : Fin a) :
    Host.reduce FloatOps.minimumf x init h' hu (ix1 i) = ⨅ j : Fin b, x (ix2 i j) := by
  rw [Host.reduce_eq_fold_single FloatOps.minimumf x init h' h hu, hinit]
  refine (Cert.LibMinReduce.fold_min_top (x ∘ h.lift (ix1 i))).trans ?_
  show ⨅ j : Fin b, x (h.lift (ix1 i) j) = _
  refine iInf_congr fun j => congrArg x (funext fun ax => Fin.ext ?_)
  match ax with
  | ⟨0, _⟩ => rfl
  | ⟨1, _⟩ => rfl

end Cert.LibHostRowMin
-- ==== Proof.RefTotal.lean ====
import proofs.«167936_j71502615544388_2_alg».proof.Proof.Gen.ReferenceIdeal.Read
import proofs.«167936_j71502615544388_2_alg».proof.Proof.Spec
import proofs.«167936_j71502615544388_2_alg».proof.Proof.LibAxisSums
import proofs.«167936_j71502615544388_2_alg».proof.Proof.LibMinReduce
import proofs.«167936_j71502615544388_2_alg».proof.Proof.LibHostRowMin
import Idealize.ShloMosaic.Lib.ValueIdx
import Idealize.ShloMosaic.PureOps.Ideal.Laws

/-! # The reference computes the mean hinge loss

The reference reshapes its argument to class, polarity, sample and coordinate, slices out the positives and the
negatives, and computes centroids, squared distances, the nearest negative, the charges, the class losses and their
mean with whole-array host operations. Read at an index by its coordinates, each of these arrays is the matching
piece of the mean hinge loss's definition, applied to the reshaped argument. -/

noncomputable section

namespace Cert.ReferenceIdeal.Total

open Idealize.ShloMosaic Idealize.ShloMosaic.ValueIdx Cert.ReferenceIdeal Cert.ReferenceIdeal.Gen Cert.ReferenceIdeal.Read
open scoped BigOperators

variable (x0 : (⟨S65536x512, .f32⟩ : BufTy).Contents (Elt Ideal))

/-- The reshaped argument as a function of class, polarity, sample and coordinate. -/
def arr : Fin 1024 → Fin 2 → Fin 32 → Fin 512 → EReal :=
  fun K u s d => val_main_v0 (F := Ideal) x0 (ix4 K u s d)

/-! ## The composed index functions at coordinates -/

theorem i5 (K : Fin 1024) (d : Fin 512) (k : Fin 32) : idx_main_v5 (ix2 K d) k = ix3 K k d :=
  funext fun a => Fin.ext (by match a with | ⟨0, _⟩ => rfl | ⟨1, _⟩ => rfl | ⟨2, _⟩ => rfl)
theorem i6 (K : Fin 1024) (u : Fin 1) (d : Fin 512) : idx_main_v6 (ix3 K u d) = ix2 K d :=
  funext fun a => Fin.ext (by match a with | ⟨0, _⟩ => rfl | ⟨1, _⟩ => rfl)
theorem i9 (K : Fin 1024) (s : Fin 32) (d : Fin 512) : idx_main_v9 (ix3 K s d) = ix3 K (0 : Fin 1) d :=
  funext fun a => Fin.ext (by match a with | ⟨0, _⟩ => rfl | ⟨1, _⟩ => rfl | ⟨2, _⟩ => rfl)
theorem i13 (K : Fin 1024) (s : Fin 32) (d : Fin 512) : idx_main_v13 (ix3 K s d) = ix3 K (0 : Fin 1) d :=
  funext fun a => Fin.ext (by match a with | ⟨0, _⟩ => rfl | ⟨1, _⟩ => rfl | ⟨2, _⟩ => rfl)
theorem i12 (K : Fin 1024) (s : Fin 32) (k : Fin 512) : idx_main_v12 (ix2 K s) k = ix3 K s k :=
  funext fun a => Fin.ext (by match a with | ⟨0, _⟩ => rfl | ⟨1, _⟩ => rfl | ⟨2, _⟩ => rfl)
theorem i16 (K : Fin 1024) (s : Fin 32) (k : Fin 512) : idx_main_v16 (ix2 K s) k = ix3 K s k :=
  funext fun a => Fin.ext (by match a with | ⟨0, _⟩ => rfl | ⟨1, _⟩ => rfl | ⟨2, _⟩ => rfl)
theorem i18 (K : Fin 1024) (u : Fin 1) : idx_main_v18 (ix2 K u) = ix1 K :=
  funext fun a => Fin.ext (by match a with | ⟨0, _⟩ => rfl)
theorem i19 (K : Fin 1024) (s : Fin 32) : idx_main_v19 (ix2 K s) = ix2 K (0 : Fin 1) :=
  funext fun a => Fin.ext (by match a with | ⟨0, _⟩ => rfl | ⟨1, _⟩ => rfl)
theorem i24 (K : Fin 1024) (k : Fin 32) : idx_main_v24 (ix1 K) k = ix2 K k :=
  funext fun a => Fin.ext (by match a with | ⟨0, _⟩ => rfl | ⟨1, _⟩ => rfl)

/-! ## The stages -/

/-- The positives: polarity 0 of the reshaped argument. -/
theorem pos_apply (K : Fin 1024) (s : Fin 32) (d : Fin 512) :
    val_main_v2 (F := Ideal) x0 (ix3 K s d) = arr x0 K 0 s d := by
  rw [val_main_v2_apply, val_main_v1_apply]
  refine congrArg (val_main_v0 (F := Ideal) x0) (funext fun a => Fin.ext ?_)
  have hK := K.isLt; have hs := s.isLt; have hd := d.isLt
  match a with
  | ⟨0, _⟩ => show ((K.val * 32 + s.val) * 512 + d.val) / 16384 = K.val; omega
  | ⟨1, _⟩ => rfl
  | ⟨2, _⟩ => show ((K.val * 32 + s.val) * 512 + d.val) / 512 % 32 = s.val; omega
  | ⟨3, _⟩ => show ((K.val * 32 + s.val) * 512 + d.val) % 512 = d.val; omega

/-- The negatives: polarity 1 of the reshaped argument. -/
theorem neg_apply (K : Fin 1024) (s : Fin 32) (d : Fin 512) :
    val_main_v4 (F := Ideal) x0 (ix3 K s d) = arr x0 K 1 s d := by
  rw [val_main_v4_apply, val_main_v3_apply]
  refine congrArg (val_main_v0 (F := Ideal) x0) (funext fun a => Fin.ext ?_)
  have hK := K.isLt; have hs := s.isLt; have hd := d.isLt
  match a with
  | ⟨0, _⟩ => show ((K.val * 32 + s.val) * 512 + d.val) / 16384 = K.val; omega
  | ⟨1, _⟩ => rfl
  | ⟨2, _⟩ => show ((K.val * 32 + s.val) * 512 + d.val) / 512 % 32 = s.val; omega
  | ⟨3, _⟩ => show ((K.val * 32 + s.val) * 512 + d.val) % 512 = d.val; omega

/-- The centroids. -/
theorem centroid_apply (K : Fin 1024) (u : Fin 1) (d : Fin 512) :
    val_main_v8 (F := Ideal) x0 (ix3 K u d) = Cert.Hinge.centroid (arr x0 K 0) d := by
  rw [val_main_v8_apply, val_main_v6_apply, i6, val_main_v5_apply, val_main_v7_apply]
  simp only [i5, pos_apply, val_main_cst_apply, val_main_cst_0_apply, Ideal.hostDivf_def, Ideal.ofBits_def,
    Ideal.ofBits_zero_f32, zero_add]
  rfl

/-- The positives' squared distances to their class's centroid. -/
theorem posDist_apply (K : Fin 1024) (s : Fin 32) :
    val_main_v12 (F := Ideal) x0 (ix2 K s) = Cert.Hinge.sqDist (Cert.Hinge.centroid (arr x0 K 0)) (arr x0 K 0 s) := by
  rw [val_main_v12_apply]
  simp only [i12, val_main_v11_apply, val_main_v10_apply, val_main_v9_apply, i9, centroid_apply, pos_apply,
    val_main_cst_1_apply, Ideal.mulf_def, Ideal.subf_def, Ideal.ofBits_def, Ideal.ofBits_zero_f32, zero_add]
  rfl

/-- The negatives' squared distances to their class's centroid. -/
theorem negDist_apply (K : Fin 1024) (s : Fin 32) :
    val_main_v16 (F := Ideal) x0 (ix2 K s) = Cert.Hinge.sqDist (arr x0 K 1 s) (Cert.Hinge.centroid (arr x0 K 0)) := by
  rw [val_main_v16_apply]
  simp only [i16, val_main_v15_apply, val_main_v14_apply, val_main_v13_apply, i13, centroid_apply, neg_apply,
    val_main_cst_2_apply, Ideal.mulf_def, Ideal.subf_def, Ideal.ofBits_def, Ideal.ofBits_zero_f32, zero_add]
  rfl

/-- The nearest negative's squared distance, per class. -/
theorem nearest_apply (K : Fin 1024) (s : Fin 32) :
    val_main_v19 (F := Ideal) x0 (ix2 K s) = Cert.Hinge.nearest (arr x0 K 0) (arr x0 K 1) := by
  rw [val_main_v19_apply, i19, val_main_v18_apply, i18]
  unfold val_main_v17
  rw [Cert.LibHostRowMin.hostMin_last2_apply (val_main_v16 (F := Ideal) x0) (val_main_cst_3 (F := Ideal))
    reducesTo_S1024x32_S1024_d1 (by decide) h_S_ Cert.LibMinReduce.ofBits_inf K]
  exact iInf_congr fun s' => negDist_apply x0 K s'

/-- The charges. -/
theorem charge_apply (K : Fin 1024) (s : Fin 32) :
    val_main_v23 (F := Ideal) x0 (ix2 K s) = Cert.Hinge.charge (arr x0 K 0) (arr x0 K 1) s := by
  rw [val_main_v23_apply, val_main_v22_apply, val_main_v20_apply, posDist_apply, nearest_apply, val_main_v21_apply,
    val_main_call0_v0_apply]
  rfl

/-- The class losses. -/
theorem classLoss_apply (K : Fin 1024) :
    val_main_v24 (F := Ideal) x0 (ix1 K) = Cert.Hinge.classLoss (arr x0 K 0) (arr x0 K 1) := by
  rw [val_main_v24_apply]
  simp only [i24, charge_apply, val_main_cst_5_apply, Ideal.ofBits_def, Ideal.ofBits_zero_f32, zero_add]
  rfl

/-- The reference's result: the mean hinge loss of the reshaped argument. -/
theorem result_apply (i : S_.Idx) :
    val_main_v26 (F := Ideal) x0 i = Cert.Hinge.meanLoss (arr x0) := by
  rw [val_main_v26_apply, val_main_v25_apply, Cert.LibAxisSums.sum_idx1]
  simp only [classLoss_apply, val_main_cst_6_apply, val_main_cst_7_apply, Ideal.hostDivf_def, Ideal.ofBits_def,
    Ideal.ofBits_zero_f32, zero_add]
  rfl

end Cert.ReferenceIdeal.Total

end
-- ==== Proof.lean ====
/- The kernel streams the embeddings of 1024 classes through a grid of 32 points, 32 classes a point, and keeps one
   running total in a one-entry output block: the sum of the class losses seen so far, divided by 1024 at the last
   point. The reference computes every class loss at once and takes their mean. A class loss is the same expression
   of the class's positives and negatives on both sides — centroid, squared distances, nearest negative, margin, clamp
   at zero — so at exact values both results are the mean hinge loss of the reshaped argument (`Cert.Hinge.meanLoss`):
   the kernel's because its running total after point `n` is the sum over the classes below `32 (n + 1)`, a regrouping
   of one finite sum in the commutative monoid of the extended reals, which needs no finiteness of the entries. The
   ideal pass rewrote nothing, so the kernel's idealization is its own text. -/
import proofs.«167936_j71502615544388_2_alg».proof.Defs
import proofs.«167936_j71502615544388_2_alg».proof.Proof.Gen.Kernel
import proofs.«167936_j71502615544388_2_alg».proof.Proof.Gen.Kernel.Skeleton
import proofs.«167936_j71502615544388_2_alg».proof.Proof.Gen.Kernel.Launch
import proofs.«167936_j71502615544388_2_alg».proof.Proof.Gen.Kernel.Points
import proofs.«167936_j71502615544388_2_alg».proof.Proof.Gen.Kernel.Frame
import proofs.«167936_j71502615544388_2_alg».proof.Proof.Gen.KernelIdeal
import proofs.«167936_j71502615544388_2_alg».proof.Proof.Gen.KernelIdeal.Skeleton
import proofs.«167936_j71502615544388_2_alg».proof.Proof.Gen.KernelIdeal.Launch
import proofs.«167936_j71502615544388_2_alg».proof.Proof.Gen.KernelIdeal.Points
import proofs.«167936_j71502615544388_2_alg».proof.Proof.Gen.KernelIdeal.Frame
import proofs.«167936_j71502615544388_2_alg».proof.Proof.Gen.ReferenceIdeal
import proofs.«167936_j71502615544388_2_alg».proof.Proof.Gen.ReferenceIdeal.Run
import proofs.«167936_j71502615544388_2_alg».proof.Proof.Gen.ReferenceIdeal.Read
import proofs.«167936_j71502615544388_2_alg».proof.Proof.Gen.Pre_finite_inputs
import proofs.«167936_j71502615544388_2_alg».proof.Proof.KernelTotal
import proofs.«167936_j71502615544388_2_alg».proof.Proof.RefTotal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the mean hinge loss of the argument reshaped to class, polarity, sample and coordinate; the
    two reshapes are one function of arguments that agree. -/
theorem algebraic : Cert.algebraic_KernelIdeal_ReferenceIdeal := by
  intro m ρ m' ρ' _ hagree
  refine ⟨fun c => fun _ => Cert.Hinge.meanLoss (Cert.KernelIdeal.Total.arr m c), Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq]
  funext i
  rw [Cert.ReferenceIdeal.Total.result_apply]
  refine congrArg Cert.Hinge.meanLoss ?_
  funext K u s d
  unfold Cert.ReferenceIdeal.Total.arr Cert.KernelIdeal.Total.arr Cert.ReferenceIdeal.Read.val_main_v0
  rw [(hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
